-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S11008x32x128 : Shape := ⟨3, ![11008, 32, 128]⟩
abbrev S11008x32x1 : Shape := ⟨3, ![11008, 32, 1]⟩
abbrev S4096 : Shape := ⟨1, ![4096]⟩
abbrev S11008 : Shape := ⟨1, ![11008]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S11008x32x1 : S_.BroadcastsInDim S11008x32x1 (![] : Fin 0 → Fin S11008x32x1.rank)
  reducesTo_S11008x32x1_S_d0_1_2 : S11008x32x1.ReducesTo [0, 1, 2] S_
  bcast_S_S4096 : S_.BroadcastsInDim S4096 (![] : Fin 0 → Fin S4096.rank)
  reducesTo_S4096_S_d0 : S4096.ReducesTo [0] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S2048x4096 .f32) (main_arg1 : IVec S11008x32x128 32) (main_arg2 : FVec F S11008x32x1 .f32) (main_arg3 : FVec F S4096 .f32) (main_arg4 : FVec F S11008 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S11008x32x1 .f32 := Host.absf main_arg2
  let main_cst_0 : FVec F S_ .f32 := constant S_ .f32 0x7F800000#32
  let main_v5 : FVec F S11008x32x1 .f32 := broadcastInDim S11008x32x1 ![] bcast_S_S11008x32x1 main_cst_0
  let main_v6 : IVec S11008x32x1 1 := cmpf .olt main_v4 main_v5
  let main_c_1 : IVec S_ 1 := constantI S_ 1 1#1
  let main_v7 : IVec S_ 1 := (fun x v => Host.reduce IntOp.andi x v reducesTo_S11008x32x1_S_d0_1_2 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S2048x4096 : Shape := ⟨2, ![2048, 4096]⟩
abbrev S11008x32x128 : Shape := ⟨3, ![11008, 32, 128]⟩
abbrev S11008x32x1 : Shape := ⟨3, ![11008, 32, 1]⟩
abbrev S4096 : Shape := ⟨1, ![4096]⟩
abbrev S11008 : Shape := ⟨1, ![11008]⟩
abbrev S1x4096 : Shape := ⟨2, ![1, 4096]⟩
abbrev S11008x32 : Shape := ⟨2, ![11008, 32]⟩
abbrev S2048x11008 : Shape := ⟨2, ![2048, 11008]⟩
abbrev S128x32x128 : Shape := ⟨3, ![128, 32, 128]⟩
abbrev S128x32 : Shape := ⟨2, ![128, 32]⟩
abbrev S128 : Shape := ⟨1, ![128]⟩
abbrev S2048x128 : Shape := ⟨2, ![2048, 128]⟩
abbrev S128x32x1 : Shape := ⟨3, ![128, 32, 1]⟩
abbrev S128x4096 : Shape := ⟨2, ![128, 4096]⟩
abbrev S1x128 : Shape := ⟨2, ![1, 128]⟩

abbrev nBuf : Space → Nat
  | .hbm => 11
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S11008x32x128, .i32⟩
  | .hbm, ⟨2, _⟩ => ⟨S11008x32x1, .f32⟩
  | .hbm, ⟨3, _⟩ => ⟨S4096, .f32⟩
  | .hbm, ⟨4, _⟩ => ⟨S11008, .f32⟩
  | .hbm, ⟨5, _⟩ => ⟨S1x4096, .f32⟩
  | .hbm, ⟨6, _⟩ => ⟨S2048x4096, .f32⟩
  | .hbm, ⟨7, _⟩ => ⟨S2048x4096, .f32⟩
  | .hbm, ⟨8, _⟩ => ⟨S2048x4096, .bf16⟩
  | .hbm, ⟨9, _⟩ => ⟨S11008x32, .f32⟩
  | .hbm, ⟨10, _⟩ => ⟨S2048x11008, .f32⟩
  | .local _ .vmem, ⟨0, _⟩ => ⟨S2048x4096, .bf16⟩
  | .local _ .vmem, ⟨1, _⟩ => ⟨S128x32x128, .i32⟩
  | .local _ .vmem, ⟨2, _⟩ => ⟨S128x32x128, .i32⟩
  | .local _ .vmem, ⟨3, _⟩ => ⟨S128x32, .f32⟩
  | .local _ .vmem, ⟨4, _⟩ => ⟨S128x32, .f32⟩
  | .local _ .vmem, ⟨5, _⟩ => ⟨S128, .f32⟩
  | .local _ .vmem, ⟨6, _⟩ => ⟨S128, .f32⟩
  | .local _ .vmem, ⟨7, _⟩ => ⟨S2048x128, .f32⟩
  | .local _ .vmem, ⟨8, _⟩ => ⟨S2048x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![86], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  bitsLt_bf16_f32 : FTy.bits .bf16 < FTy.bits .f32
  shapeCasts_S11008x32x1_S11008x32 : S11008x32x1.ShapeCasts S11008x32
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S128x32x128_S128x32x128_0_0_0 : ∀ a, (![0, 0, 0] : Fin 3 → Nat) a + S128x32x128.size a ≤ S128x32x128.size a
  h_S128x32x128 : 0 < S128x32x128.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  dot_S2048x4096_S128x4096_S2048x128_1_1_0_0_n_n_wf : DotDims.WF S2048x4096 S128x4096 S2048x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S2048x4096.size a
  hwx0_0 : ∀ i : grid0.Coords, EltTy.bits .bf16 = 32 ∨ (Rect.block (s := S2048x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32x128.size a ≤ S11008x32x128.size a
  hwx0_1 : ∀ i : grid0.Coords, EltTy.bits .i32 = 32 ∨ (Rect.block (s := S11008x32x128) S128x32x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S11008x32.size a
  hwx0_2 : ∀ i : grid0.Coords, EltTy.bits .f32 = 32 ∨ (Rect.block (s := S11008x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S11008.size a
  hwx0_3 : ∀ i : grid0.Coords, EltTy.bits .f32 = 32 ∨ (Rect.block (s := S11008) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S2048x11008.size a
  hwx0_4 : ∀ i : grid0.Coords, EltTy.bits .f32 = 32 ∨ (Rect.block (s := S2048x11008) S2048x128.size (cc0_transform_4 i) (hinb0_4 i)).WholeWords (EltTy.packing .f32)

variable [Facts₀]

def dot_S2048x4096_S128x4096_S2048x128_1_1_0_0_n_n : DotDims S2048x4096 S128x4096 S2048x128 where
  lhsContracting := [1]
  rhsContracting := [1]
  lhsNonContracting := [0]
  rhsNonContracting := [0]
  lhsBatch := []
  rhsBatch := []
  wf := dot_S2048x4096_S128x4096_S2048x128_1_1_0_0_n_n_wf

abbrev win0_0 : Pipeline.Window sig grid0 :=
  Pipeline.Window.ofSpec (Memref.whole main_v3) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S11008x32x128 : Shape := ⟨3, ![11008, 32, 128]⟩
abbrev S11008x32x1 : Shape := ⟨3, ![11008, 32, 1]⟩
abbrev S4096 : Shape := ⟨1, ![4096]⟩
abbrev S11008 : Shape := ⟨1, ![11008]⟩
abbrev S11008x4096 : Shape := ⟨2, ![11008, 4096]⟩
abbrev S1x4096 : Shape := ⟨2, ![1, 4096]⟩
abbrev S4096x11008 : Shape := ⟨2, ![4096, 11008]⟩
abbrev S2048x11008 : Shape := ⟨2, ![2048, 11008]⟩
abbrev S1x11008 : Shape := ⟨2, ![1, 11008]⟩

abbrev nBuf : Space → Nat
  | .hbm => 17
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S11008x32x128, .i32⟩
  | .hbm, ⟨2, _⟩ => ⟨S11008x32x1, .f32⟩
  | .hbm, ⟨3, _⟩ => ⟨S4096, .f32⟩
  | .hbm, ⟨4, _⟩ => ⟨S11008, .f32⟩
  | .hbm, ⟨5, _⟩ => ⟨S11008x32x128, .f32⟩
  | .hbm, ⟨6, _⟩ => ⟨S11008x32x128, .f32⟩
  | .hbm, ⟨7, _⟩ => ⟨S11008x32x128, .f32⟩
  | .hbm, ⟨8, _⟩ => ⟨S11008x4096, .f32⟩
  | .hbm, ⟨9, _⟩ => ⟨S1x4096, .f32⟩
  | .hbm, ⟨10, _⟩ => ⟨S2048x4096, .f32⟩
  | .hbm, ⟨11, _⟩ => ⟨S2048x4096, .f32⟩
  | .hbm, ⟨12, _⟩ => ⟨S4096x11008, .f32⟩
  | .hbm, ⟨13, _⟩ => ⟨S2048x11008, .f32⟩
  | .hbm, ⟨14, _⟩ => ⟨S1x11008, .f32⟩
  | .hbm, ⟨15, _⟩ => ⟨S2048x11008, .f32⟩
  | .hbm, ⟨16, _⟩ => ⟨S2048x11008, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  transposes_S11008x4096_S4096x11008_1_0 : S11008x4096.Transposes [1, 0] S4096x11008
  bcast_S11008_S1x11008_1 : S11008.BroadcastsInDim S1x11008 (![1] : Fin 1 → Fin S1x11008.rank)
  bcast_S1x11008_S2048x11008_0_1 : S1x11008.BroadcastsInDim S2048x11008 (![0, 1] : Fin 2 → Fin S2048x11008.rank)
  dot_S2048x4096_S4096x11008_S2048x11008_1_0_0_1_n_n_wf : DotDims.WF S2048x4096 S4096x11008 S2048x11008 [1] [0] [0] [1] [] []

variable [Facts₀]

def dot_S2048x4096_S4096x11008_S2048x11008_1_0_0_1_n_n : DotDims S2048x4096 S4096x11008 S2048x11008 where
  lhsContracting := [1]
  rhsContracting := [0]
  lhsNonContracting := [0]
  rhsNonContracting := [1]
  lhsBatch := []
  rhsBatch := []
  wf := dot_S2048x4096_S4096x11008_S2048x11008_1_0_0_1_n_n_wf

class Facts : Prop extends Facts₀ where

variable [Facts]
-- ==== Proof.Spec.lean ====
/-
  The function both programs compute, written once over the argument arrays.

  A token's activation row `x[t, ·]` (4096 input features) is first smoothed feature by feature, `x[t, k] / s[k]`.
  The weight of output `o` for feature `k` is stored quantized: the features are laid out in 32 groups of 128, feature
  `k` being lane `k % 128` of group `k / 128`; the stored integer `w_q[o, k / 128, k % 128]`, read signed, is multiplied
  by that group's scale `scales[o, k / 128, 0]`. The result is the linear layer

      out[t, o] = (∑ k < 4096, (x[t, k] / s[k]) · (w_q[o, k / 128, k % 128] · scales[o, k / 128, 0])) + bias[o]

  over the extended reals, where a float is an exact number, a change of float format does nothing, and the division is
  the extended reals' total one (whatever it gives at a zero or infinite divisor, it is the same operation wherever it
  is written). Nothing below assumes any entry finite: the two programs differ only in how they tile and order this
  sum, and sums and products of extended reals commute and associate.
-/
import Idealize.ShloMosaic.PureOps.Ideal
import Idealize.ShloMosaic.Lib.ValueIdx

noncomputable section

open scoped BigOperators
open Idealize.ShloMosaic Idealize.ShloMosaic.ValueIdx

namespace Cert.GroupedLinear

/-- The group input feature `k` belongs to: 32 groups of 128 consecutive features. -/
abbrev grp (k : Fin 4096) : Fin 32 := ⟨k.val / 128, by have := k.isLt; omega⟩

/-- The position of input feature `k` inside its group. -/
abbrev lane (k : Fin 4096) : Fin 128 := ⟨k.val % 128, by omega⟩

/-- The smoothed activation: token `t`'s feature `k` divided by that feature's smoothing factor. -/
def smoothed (x : (⟨2, ![2048, 4096]⟩ : Shape).Idx → EReal) (s : (⟨1, ![4096]⟩ : Shape).Idx → EReal)
    (t : Fin 2048) (k : Fin 4096) : EReal :=
  Ideal.div (x (ix2 t k)) (s (ix1 k))

/-- The dequantized weight of output `o` for feature `k`: the stored integer, read signed, times its group's scale. -/
def weight (wq : (⟨3, ![11008, 32, 128]⟩ : Shape).Idx → BitVec 32) (sc : (⟨3, ![11008, 32, 1]⟩ : Shape).Idx → EReal)
    (o : Fin 11008) (k : Fin 4096) : EReal :=
  (FloatOps.sitofp (F := Ideal) .f32 (wq (ix3 o (grp k) (lane k))) : EReal) * sc (ix3 o (grp k) (0 : Fin 1))

/-- The linear layer: at token `t` and output `o`, the sum over the 4096 features of smoothed activation times
    dequantized weight, plus the output's bias. -/
def linear (x : (⟨2, ![2048, 4096]⟩ : Shape).Idx → EReal) (wq : (⟨3, ![11008, 32, 128]⟩ : Shape).Idx → BitVec 32)
    (sc : (⟨3, ![11008, 32, 1]⟩ : Shape).Idx → EReal) (s : (⟨1, ![4096]⟩ : Shape).Idx → EReal)
    (b : (⟨1, ![11008]⟩ : Shape).Idx → EReal) : (⟨2, ![2048, 11008]⟩ : Shape).Idx → EReal :=
  fun i => (∑ k : Fin 4096, smoothed x s (i 0) k * weight wq sc (i 1) k) + b (ix1 (i 1))

/-- The linear layer at an index written by its coordinates. -/
theorem linear_apply (x : (⟨2, ![2048, 4096]⟩ : Shape).Idx → EReal) (wq : (⟨3, ![11008, 32, 128]⟩ : Shape).Idx → BitVec 32)
    (sc : (⟨3, ![11008, 32, 1]⟩ : Shape).Idx → EReal) (s : (⟨1, ![4096]⟩ : Shape).Idx → EReal)
    (b : (⟨1, ![11008]⟩ : Shape).Idx → EReal) (t : Fin 2048) (o : Fin 11008) :
    linear x wq sc s b (ix2 t o) = (∑ k : Fin 4096, smoothed x s t k * weight wq sc o k) + b (ix1 o) := rfl

end Cert.GroupedLinear

end
-- ==== Proof.RefValue.lean ====
/-
  The reference computes the linear layer of Spec.lean.

  Its program dequantizes the whole weight array (convert, broadcast the scales along the lanes, multiply), flattens
  the (group, lane) axes into the 4096 features, transposes, smooths the activations, contracts the two over the
  features and adds the broadcast bias. Read one element at a time each of these steps only moves an index: the
  flattened feature `k` of row `o` is entry `(o, k / 128, k % 128)` of the unflattened array, the transpose swaps the
  two coordinates, a broadcast forgets the coordinate it copies along. What is left at token `t` and output `o` is
  the sum over `k` of `(x[t, k] / s[k]) · (w_q[o, k / 128, k % 128] · scales[o, k / 128, 0])`, plus `bias[o]`.
-/
import proofs.«150704_j20847771255042_2_alg».proof.Proof.Gen.ReferenceIdeal.Read
import proofs.«150704_j20847771255042_2_alg».proof.Proof.Spec

noncomputable section

open scoped BigOperators
open Idealize.ShloMosaic Idealize.ShloMosaic.ValueIdx

namespace Cert.ReferenceIdeal.RefValue

open Cert.ReferenceIdeal Cert.ReferenceIdeal.Read Cert.GroupedLinear

/-! ## Where each step reads its operand -/

/-- The contraction's left operand at output `(t, o)` and feature `k` is read at `(t, k)`. -/
theorem lidx_eq (t : Fin 2048) (o : Fin 11008) (k : Fin 4096) : lidx_main_v8 (ix2 t o) k = ix2 t k :=
  funext fun a => Fin.ext (by match a with | ⟨0, _⟩ => rfl | ⟨1, _⟩ => rfl)

/-- Its right operand, the transposed weights, at `(k, o)`. -/
theorem ridx_eq (t : Fin 2048) (o : Fin 11008) (k : Fin 4096) : ridx_main_v8 (ix2 t o) k = ix2 k o :=
  funext fun a => Fin.ext (by match a with | ⟨0, _⟩ => rfl | ⟨1, _⟩ => rfl)

/-- The transpose at `(k, o)` reads `(o, k)`. -/
theorem tidx_eq (o : Fin 11008) (k : Fin 4096) : idx_main_v7 (ix2 k o) = ix2 o k :=
  funext fun a => Fin.ext (by match a with | ⟨0, _⟩ => rfl | ⟨1, _⟩ => rfl)

/-- Flattening (group, lane) into the feature axis: feature `k` of row `o` is lane `k % 128` of group `k / 128`. -/
theorem flat_eq (o : Fin 11008) (k : Fin 4096) : idx_main_v3 (ix2 o k) = ix3 o (grp k) (lane k) :=
  funext fun a => Fin.ext (by
    have ho : o.val < 11008 := o.isLt
    have hk : k.val < 4096 := k.isLt
    match a with
    | ⟨0, _⟩ => show (o.val * 4096 + k.val) / 4096 = o.val; omega
    | ⟨1, _⟩ => show (o.val * 4096 + k.val) / 128 % 32 = k.val / 128; omega
    | ⟨2, _⟩ => show (o.val * 4096 + k.val) % 128 = k.val % 128; omega)

/-- The scales broadcast along the lanes: every lane of group `g` reads the group's one scale. -/
theorem scale_eq (o : Fin 11008) (g : Fin 32) (r : Fin 128) : idx_main_v1 (ix3 o g r) = ix3 o g (0 : Fin 1) :=
  funext fun a => Fin.ext (by match a with | ⟨0, _⟩ => rfl | ⟨1, _⟩ => rfl | ⟨2, _⟩ => rfl)

/-- The smoothing factors broadcast along the tokens: feature `k`'s factor, whatever the token. -/
theorem smooth_eq (t : Fin 2048) (k : Fin 4096) : idx_main_v4 (idx_main_v5 (ix2 t k)) = ix1 k :=
  funext fun a => Fin.ext (by match a with | ⟨0, _⟩ => rfl)

/-- The bias broadcast along the tokens: output `o`'s bias, whatever the token. -/
theorem bias_eq (t : Fin 2048) (o : Fin 11008) : idx_main_v9 (idx_main_v10 (ix2 t o)) = ix1 o :=
  funext fun a => Fin.ext (by match a with | ⟨0, _⟩ => rfl)

/-! ## The reference's result -/

/-- The reference's result array, as a function of its five argument arrays, is the linear layer. -/
theorem result_eq (x0 : (⟨S2048x4096, .f32⟩ : BufTy).Contents (Elt Ideal)) (x1 : (⟨S11008x32x128, .i32⟩ : BufTy).Contents (Elt Ideal))
    (x2 : (⟨S11008x32x1, .f32⟩ : BufTy).Contents (Elt Ideal)) (x3 : (⟨S4096, .f32⟩ : BufTy).Contents (Elt Ideal))
    (x4 : (⟨S11008, .f32⟩ : BufTy).Contents (Elt Ideal)) :
    val_main_v11 (F := Ideal) x0 x1 x2 x3 x4 = linear x0 x1 x2 x3 x4 := by
  funext i
  obtain ⟨t, o, rfl⟩ : ∃ (t : Fin 2048) (o : Fin 11008), i = ix2 t o := ⟨i 0, i 1, eq_ix2 i⟩
  rw [val_main_v11_apply, val_main_v8_apply, val_main_v10_apply, val_main_v9_apply, bias_eq, linear_apply]
  refine congrArg (· + x4 (ix1 o)) (Finset.sum_congr rfl fun k _ => ?_)
  rw [lidx_eq, ridx_eq, val_main_v6_apply, val_main_v5_apply, val_main_v4_apply, smooth_eq, val_main_v7_apply, tidx_eq,
    val_main_v3_apply, flat_eq, val_main_v2_apply, val_main_v0_apply, val_main_v1_apply, scale_eq]
  rfl

end Cert.ReferenceIdeal.RefValue

end
-- ==== Proof.Tile.lean ====
/-
  What the kernel body stores, one entry at a time.

  At a grid point the body holds the whole smoothed activation array `a` (2048 tokens × 4096 features), a tile of 128
  output rows of the quantized weights `w` (128 × 32 groups × 128 lanes) with their scales `c` (128 × 32) and biases
  `b` (128). It dequantizes the tile (the integers read signed, each times its group's scale, the scale copied along
  the group's 128 lanes), flattens (group, lane) into the 4096 features, and multiplies the activations by the
  transposed tile into a zero accumulator, then adds the biases along the tokens. So entry `(p, q)` of what it stores is

      (∑ k < 4096, a[p, k] · (w[q, k / 128, k % 128] · c[q, k / 128])) + b[q]:

  the flattening puts feature `k` of row `q` at row-major position `q · 4096 + k = (q · 32 + k / 128) · 128 + k % 128`,
  the matrix product into zero is the plain sum over its one contracted axis, and the changes of float format do
  nothing on exact numbers.
-/
import proofs.«150704_j20847771255042_2_alg».proof.Proof.Gen.KernelIdeal.Skeleton
import proofs.«150704_j20847771255042_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Tile

open Cert.KernelIdeal Cert.KernelIdeal.Gen Cert.GroupedLinear

/-! ## The layout steps, read at an index -/

/-- Flattening (group, lane) into the feature axis: feature `k` of tile row `q` is lane `k % 128` of group `k / 128`. -/
theorem flatten_apply {α : Type} (y : S128x32x128.Idx → α) (q : Fin 128) (k : Fin 4096) :
    shapeCast S128x4096 y shapeCasts_S128x32x128_S128x4096 (ix2 q k) = y (ix3 q (grp k) (lane k)) :=
  shapeCast_apply y shapeCasts_S128x32x128_S128x4096 (ix2 q k) (ix3 q (grp k) (lane k)) (by
    rw [Shape.rowMajor_val_three, Shape.rowMajor_val_two]
    have hq : q.val < 128 := q.isLt
    have hk : k.val < 4096 := k.isLt
    show (q.val * 32 + k.val / 128) * 128 + k.val % 128 = q.val * 4096 + k.val
    omega)

/-- A group's scale copied along its lanes: every lane `r` of group `g` reads the one entry `(q, g, 0)`. -/
theorem lanes_apply {α : Type} (y : S128x32x1.Idx → α) (q : Fin 128) (g : Fin 32) (r : Fin 128) :
    broadcastTo S128x32x128 y broadcasts_S128x32x1_S128x32x128 (ix3 q g r) = y (ix3 q g (0 : Fin 1)) :=
  broadcastTo_apply y broadcasts_S128x32x1_S128x32x128 (ix3 q g r) (ix3 q g (0 : Fin 1)) fun a => by
    match a with
    | ⟨0, _⟩ => show q.val = if (128 : Nat) = 1 then 0 else q.val; rw [if_neg (by decide)]
    | ⟨1, _⟩ => show g.val = if (32 : Nat) = 1 then 0 else g.val; rw [if_neg (by decide)]
    | ⟨2, _⟩ => show 0 = if (1 : Nat) = 1 then 0 else r.val; rw [if_pos rfl]

/-- The scales viewed with a trailing unit axis: entry `(q, g, 0)` is entry `(q, g)`. -/
theorem unit_apply {α : Type} (y : S128x32.Idx → α) (q : Fin 128) (g : Fin 32) (u : Fin 1) :
    shapeCast S128x32x1 y shapeCasts_S128x32_S128x32x1 (ix3 q g u) = y (ix2 q g) :=
  shapeCast_apply y shapeCasts_S128x32_S128x32x1 (ix3 q g u) (ix2 q g) (by
    rw [Shape.rowMajor_val_three, Shape.rowMajor_val_two]
    have hu : u.val = 0 := by omega
    show q.val * 32 + g.val = (q.val * 32 + g.val) * 1 + u.val
    omega)

/-! ## The dequantized tile and the bias rows -/

/-- The dequantized weight tile as the body forms it: 128 output rows by 4096 features. -/
def tileWeights (w : Vec Ideal S128x32x128 .i32) (c : Vec Ideal S128x32 .f32) : FVec Ideal S128x4096 .bf16 :=
  truncf .bf16 (shapeCast S128x4096 (mulf (sitofp .f32 w) (broadcastTo S128x32x128 (shapeCast S128x32x1
    (shapeCast S128x32 c shapeCasts_S128x32_S128x32) shapeCasts_S128x32_S128x32x1) broadcasts_S128x32x1_S128x32x128))
    shapeCasts_S128x32x128_S128x4096) bitsLt_bf16_f32

/-- Its entry for tile row `q` and feature `k`: the stored integer, read signed, times its group's scale. -/
theorem tileWeights_apply (w : Vec Ideal S128x32x128 .i32) (c : Vec Ideal S128x32 .f32) (q : Fin 128) (k : Fin 4096) :
    tileWeights w c (ix2 q k)
      = (FloatOps.sitofp (F := Ideal) .f32 (w (ix3 q (grp k) (lane k))) : EReal) * c (ix2 q (grp k)) := by
  unfold tileWeights
  rw [truncf_apply, flatten_apply, mulf_apply, sitofp_apply, lanes_apply, unit_apply, shapeCast_self]

/-- The biases copied along the tokens, as the body forms them. -/
def tileBias (b : Vec Ideal S128 .f32) : FVec Ideal S2048x128 .f32 :=
  broadcastTo S2048x128 (shapeCast S1x128 b shapeCasts_S128_S1x128) broadcasts_S1x128_S2048x128

/-- Every token's row of it is the bias row. -/
theorem tileBias_apply (b : Vec Ideal S128 .f32) (p : Fin 2048) (q : Fin 128) : tileBias b (ix2 p q) = b (ix1 q) := by
  unfold tileBias
  rw [broadcastTo_1b_ab_apply, shapeCast_a_1a_apply]

/-! ## The matrix product's operand indices -/

/-- The left operand is read at the output's token … -/
theorem lhs_tok (i : S2048x128.Idx) (κ : dot_S2048x4096_S128x4096_S2048x128_1_1_0_0_n_n.contr.Idx) : (dot_S2048x4096_S128x4096_S2048x128_1_1_0_0_n_n.lhsIdx i κ 0).val = (i 0).val := by
  unfold DotDims.lhsIdx
  rw [dif_neg (show ¬(0 : Fin S2048x4096.rank) ∈ dot_S2048x4096_S128x4096_S2048x128_1_1_0_0_n_n.lhsBatch by decide),
    dif_pos (show (0 : Fin S2048x4096.rank) ∈ dot_S2048x4096_S128x4096_S2048x128_1_1_0_0_n_n.lhsNonContracting by decide)]
  rfl
/-- … and the contracted feature; -/
theorem lhs_feat (i : S2048x128.Idx) (κ : dot_S2048x4096_S128x4096_S2048x128_1_1_0_0_n_n.contr.Idx) : (dot_S2048x4096_S128x4096_S2048x128_1_1_0_0_n_n.lhsIdx i κ 1).val = (κ ⟨0, by decide⟩).val :=
  dot_S2048x4096_S128x4096_S2048x128_1_1_0_0_n_n.lhsIdx_val_of_single rfl i κ
/-- the right operand, the tile, at the output's column as its ROW … -/
theorem rhs_row (i : S2048x128.Idx) (κ : dot_S2048x4096_S128x4096_S2048x128_1_1_0_0_n_n.contr.Idx) : (dot_S2048x4096_S128x4096_S2048x128_1_1_0_0_n_n.rhsIdx i κ 0).val = (i 1).val := by
  unfold DotDims.rhsIdx
  rw [dif_neg (show ¬(0 : Fin S128x4096.rank) ∈ dot_S2048x4096_S128x4096_S2048x128_1_1_0_0_n_n.rhsBatch by decide),
    dif_pos (show (0 : Fin S128x4096.rank) ∈ dot_S2048x4096_S128x4096_S2048x128_1_1_0_0_n_n.rhsNonContracting by decide)]
  rfl
/-- … and the contracted feature: the product is with the tile transposed. -/
theorem rhs_feat (i : S2048x128.Idx) (κ : dot_S2048x4096_S128x4096_S2048x128_1_1_0_0_n_n.contr.Idx) : (dot_S2048x4096_S128x4096_S2048x128_1_1_0_0_n_n.rhsIdx i κ 1).val = (κ ⟨0, by decide⟩).val :=
  dot_S2048x4096_S128x4096_S2048x128_1_1_0_0_n_n.rhsIdx_val_of_single rfl i κ

/-- The product of the activations with the transposed tile, into zero, at `(p, q)`: the sum over the features. -/
theorem product_apply (a : FVec Ideal S2048x4096 .bf16) (v : FVec Ideal S128x4096 .bf16) (p : Fin 2048) (q : Fin 128) :
    matmul dot_S2048x4096_S128x4096_S2048x128_1_1_0_0_n_n none a v (constant S2048x128 .f32 0x00000000#32) (ix2 p q)
      = ∑ k : Fin 4096, a (ix2 p k) * v (ix2 q k) := by
  refine (Ideal.matmul_constant_zero_apply dot_S2048x4096_S128x4096_S2048x128_1_1_0_0_n_n none a v (ix2 p q)).trans ?_
  rw [← Equiv.sum_comp (contrEquiv1 dot_S2048x4096_S128x4096_S2048x128_1_1_0_0_n_n 4096 rfl rfl).symm]
  refine Finset.sum_congr rfl fun k _ => ?_
  have hk := contrEquiv1_symm_val dot_S2048x4096_S128x4096_S2048x128_1_1_0_0_n_n 4096 rfl rfl k
  have el : dot_S2048x4096_S128x4096_S2048x128_1_1_0_0_n_n.lhsIdx (ix2 p q) ((contrEquiv1 dot_S2048x4096_S128x4096_S2048x128_1_1_0_0_n_n 4096 rfl rfl).symm k) = ix2 p k := funext fun ax => Fin.ext (by
    match ax with
    | ⟨0, _⟩ => exact lhs_tok _ _
    | ⟨1, _⟩ => exact (lhs_feat _ _).trans hk)
  have er : dot_S2048x4096_S128x4096_S2048x128_1_1_0_0_n_n.rhsIdx (ix2 p q) ((contrEquiv1 dot_S2048x4096_S128x4096_S2048x128_1_1_0_0_n_n 4096 rfl rfl).symm k) = ix2 q k := funext fun ax => Fin.ext (by
    match ax with
    | ⟨0, _⟩ => exact rhs_row _ _
    | ⟨1, _⟩ => exact (rhs_feat _ _).trans hk)
  rw [el, er]

/-! ## The stored value -/

/-- The body's stored value is the product of the activations with the transposed dequantized tile, plus the bias rows. -/
theorem stored_eq (a : Vec Ideal S2048x4096 .bf16) (w : Vec Ideal S128x32x128 .i32) (c : Vec Ideal S128x32 .f32) (b : Vec Ideal S128 .f32) :
    k0_pay1 (F := Ideal) a w c b
      = addf (matmul dot_S2048x4096_S128x4096_S2048x128_1_1_0_0_n_n none (shapeCast S2048x4096 a shapeCasts_S2048x4096_S2048x4096 : FVec Ideal S2048x4096 .bf16) (tileWeights w c)
          (constant S2048x128 .f32 0x00000000#32)) (tileBias b) := rfl

/-- Entry `(p, q)` of the stored value: token `p`'s activations against tile row `q`'s dequantized weights, summed
    over the features, plus row `q`'s bias. -/
theorem stored_apply (a : Vec Ideal S2048x4096 .bf16) (w : Vec Ideal S128x32x128 .i32) (c : Vec Ideal S128x32 .f32) (b : Vec Ideal S128 .f32)
    (p : Fin 2048) (q : Fin 128) :
    k0_pay1 (F := Ideal) a w c b (ix2 p q)
      = (∑ k : Fin 4096, a (ix2 p k) * ((FloatOps.sitofp (F := Ideal) .f32 (w (ix3 q (grp k) (lane k))) : EReal) * c (ix2 q (grp k))))
        + b (ix1 q) := by
  rw [stored_eq, addf_apply, product_apply, tileBias_apply, shapeCast_self]
  exact congrArg (· + b (ix1 q)) (Finset.sum_congr rfl fun k _ => by rw [tileWeights_apply])

end Cert.KernelIdeal.Tile

end
-- ==== Proof.Entry.lean ====
/-
  The two operands the kernel's program computes before it launches the grid.

  The activations are smoothed ahead of the launch, once for all tiles: the smoothing factors are copied along the
  tokens and the activation array is divided by them entry by entry (the change of float format after it does
  nothing on exact numbers), so the array the grid reads holds `x[t, k] / s[k]` at `(t, k)`. The scales are viewed
  without their trailing unit axis: entry `(o, g)` of the array the grid reads is `scales[o, g, 0]`.
-/
import proofs.«150704_j20847771255042_2_alg».proof.Proof.Gen.KernelIdeal.Frame
import proofs.«150704_j20847771255042_2_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.ShloMosaic.ValueIdx Idealize.SL.Sem Idealize.ShloMosaic.StableHlo

namespace Cert.KernelIdeal.Entry

open Cert.KernelIdeal Cert.KernelIdeal.Gen Cert.GroupedLinear

variable (m : (ℓ : Loc nD τ sig) → Buf (Elt Ideal) ℓ)

/-- The smoothing factors copied along the tokens: feature `k`'s factor, whatever the token. -/
theorem factors_apply {α : Type} (y : S4096.Idx → α) (t : Fin 2048) (k : Fin 4096) :
    broadcastInDim S2048x4096 ![0, 1] bcast_S1x4096_S2048x4096_0_1 (broadcastInDim S1x4096 ![1] bcast_S4096_S1x4096_1 y) (ix2 t k)
      = y (ix1 k) :=
  (broadcastInDim_apply _ bcast_S1x4096_S2048x4096_0_1 _ (ix2 t k) (ix2 (0 : Fin 1) k) fun a => by
    match a with
    | ⟨0, _⟩ => show 0 = if (1 : Nat) = 1 then 0 else t.val; rw [if_pos rfl]
    | ⟨1, _⟩ => show k.val = if (4096 : Nat) = 1 then 0 else k.val; rw [if_neg (by decide)]).trans
  (broadcastInDim_apply _ bcast_S4096_S1x4096_1 y (ix2 (0 : Fin 1) k) (ix1 k) fun a => by
    match a with
    | ⟨0, _⟩ => show k.val = if (4096 : Nat) = 1 then 0 else k.val; rw [if_neg (by decide)])

/-- The array of smoothed activations the grid reads, as a term of the argument arrays. -/
theorem acts_eq (c : Dev nD) :
    (V m c main_v3 : S2048x4096.Idx → EReal)
      = truncf .bf16 (Host.divf (F := Ideal) (m ((c : Thread nD τ).loc main_arg0))
          (broadcastInDim S2048x4096 ![0, 1] bcast_S1x4096_S2048x4096_0_1
            (broadcastInDim S1x4096 ![1] bcast_S4096_S1x4096_1 (m ((c : Thread nD τ).loc main_arg3))))) bitsLt_bf16_f32 := by
  dsimp only [Gen.V, Gen.hostOps0]; after_results <;> rfl

/-- Its entry for token `t` and feature `k`: the activation divided by the feature's smoothing factor. -/
theorem acts_apply (c : Dev nD) (t : Fin 2048) (k : Fin 4096) :
    (V m c main_v3 : S2048x4096.Idx → EReal) (ix2 t k)
      = smoothed (m ((c : Thread nD τ).loc main_arg0)) (m ((c : Thread nD τ).loc main_arg3)) t k := by
  refine (congrFun (acts_eq m c) (ix2 t k)).trans ?_
  show Ideal.div (m ((c : Thread nD τ).loc main_arg0) (ix2 t k)) _ = _
  rw [factors_apply]
  rfl

/-- The array of scales the grid reads, as a term of the argument array. -/
theorem scales_eq (c : Dev nD) :
    (V m c main_v4 : S11008x32.Idx → EReal)
      = shapeCast S11008x32 (m ((c : Thread nD τ).loc main_arg2)) shapeCasts_S11008x32x1_S11008x32 := by
  dsimp only [Gen.V, Gen.hostOps0]; after_results <;> rfl

/-- Its entry `(o, g)`: output `o`'s scale for group `g`. -/
theorem scales_apply (c : Dev nD) (o : Fin 11008) (g : Fin 32) :
    (V m c main_v4 : S11008x32.Idx → EReal) (ix2 o g)
      = (m ((c : Thread nD τ).loc main_arg2) : S11008x32x1.Idx → EReal) (ix3 o g (0 : Fin 1)) := by
  refine (congrFun (scales_eq m c) (ix2 o g)).trans ?_
  exact shapeCast_apply _ shapeCasts_S11008x32x1_S11008x32 (ix2 o g) (ix3 o g (0 : Fin 1)) (by
    rw [Shape.rowMajor_val_three, Shape.rowMajor_val_two]
    show (o.val * 32 + g.val) * 1 + 0 = o.val * 32 + g.val
    omega)

end Cert.KernelIdeal.Entry

end
-- ==== Proof.Whole.lean ====
/-
  From the tiles to the whole result array.

  The grid has 86 points. At point `j` the kernel reads the whole array of smoothed activations (its one block, every
  point), rows `128 j … 128 j + 127` of the quantized weights, of the scales and of the biases, and writes columns
  `128 j … 128 j + 127` of the result, all 2048 tokens of them. So entry `(p, q)` of what point `j` writes back is
  the linear layer at token `p` and output `o = 128 j + q`: the body's entry (Tile.lean) with each tile row `q` read as
  array row `o`, the smoothed activations and the scales as the program prepared them (Entry.lean). Column `o` of the
  result lies in the block of point `o / 128` and every point writes back, so the 86 blocks cover the array, and after
  the run it holds the linear layer everywhere.
-/
import proofs.«150704_j20847771255042_2_alg».proof.Proof.Gen.KernelIdeal.Value
import proofs.«150704_j20847771255042_2_alg».proof.Proof.Tile
import proofs.«150704_j20847771255042_2_alg».proof.Proof.Entry

noncomputable section

open scoped BigOperators
open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen Cert.GroupedLinear

variable (m : (ℓ : Loc nD τ sig) → Buf (Elt Ideal) ℓ) (ρ : Dev nD → PrngReg)

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- Which block each operand's window is on at grid point `t`: the activations always on their one block; the
    weights, scales and biases on row block `t`; the result on column block `t`. Decided over the 86 points. -/
theorem tiles : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 1) = t.val
    ∧ win0_4.index t (0 : Fin 2) = 0 ∧ win0_4.index t (1 : Fin 2) = t.val :=
  (by decide +kernel : ∀ t : Fin grid0.N, _)

/-! ## Each operand's block at a point, as entries of its array -/

/-- The activations' block is the whole array of smoothed activations. -/
theorem acts_block (c : Dev nD) (t : Fin cfg0.N) (p : Fin 2048) (k : Fin 4096) :
    (iblk m c 0 t : Vec Ideal S2048x4096 .bf16) (ix2 p k) = (V m c main_v3 : S2048x4096.Idx → EReal) (ix2 p k) := by
  obtain ⟨e0, e1, -⟩ := tiles t
  unfold iblk
  rw [View.read_apply]
  show (V m c main_v3 : S2048x4096.Idx → EReal) _ = (V m c main_v3 : S2048x4096.Idx → EReal) _
  refine congrArg (V m c main_v3 : S2048x4096.Idx → EReal) (funext fun a => Fin.ext ?_)
  match a with
  | ⟨0, _⟩ => show win0_0.index t (0 : Fin 2) * 2048 + 1 * p.val = p.val; omega
  | ⟨1, _⟩ => show win0_0.index t (1 : Fin 2) * 4096 + 1 * k.val = k.val; omega

/-- Tile row `q` of the weights at point `t` is array row `o = 128 t + q`. -/
theorem weights_block (c : Dev nD) (t : Fin cfg0.N) (q : Fin 128) (g : Fin 32) (r : Fin 128) (o : Fin 11008)
    (ho : o.val = t.val * 128 + q.val) :
    (iblk m c 1 t : Vec Ideal S128x32x128 .i32) (ix3 q g r) = ((m ((c : Thread nD τ).loc main_arg1)) : S11008x32x128.Idx → BitVec 32) (ix3 o g r) := by
  obtain ⟨-, -, e0, e1, e2, -⟩ := tiles t
  unfold iblk
  rw [View.read_apply]
  show (V m c main_arg1 : S11008x32x128.Idx → BitVec 32) _ = _
  rw [V_main_arg1]
  refine congrArg ((m ((c : Thread nD τ).loc main_arg1)) : S11008x32x128.Idx → BitVec 32) (funext fun a => Fin.ext ?_)
  match a with
  | ⟨0, _⟩ => show win0_1.index t (0 : Fin 3) * 128 + 1 * q.val = o.val; omega
  | ⟨1, _⟩ => show win0_1.index t (1 : Fin 3) * 32 + 1 * g.val = g.val; omega
  | ⟨2, _⟩ => show win0_1.index t (2 : Fin 3) * 128 + 1 * r.val = r.val; omega

/-- Tile row `q` of the scales at point `t` is row `o = 128 t + q` of the scales the program prepared. -/
theorem scales_block (c : Dev nD) (t : Fin cfg0.N) (q : Fin 128) (g : Fin 32) (o : Fin 11008)
    (ho : o.val = t.val * 128 + q.val) :
    (iblk m c 2 t : Vec Ideal S128x32 .f32) (ix2 q g) = (V m c main_v4 : S11008x32.Idx → EReal) (ix2 o g) := by
  obtain ⟨-, -, -, -, -, e0, e1, -⟩ := tiles t
  unfold iblk
  rw [View.read_apply]
  show (V m c main_v4 : S11008x32.Idx → EReal) _ = (V m c main_v4 : S11008x32.Idx → EReal) _
  refine congrArg (V m c main_v4 : S11008x32.Idx → EReal) (funext fun a => Fin.ext ?_)
  match a with
  | ⟨0, _⟩ => show win0_2.index t (0 : Fin 2) * 128 + 1 * q.val = o.val; omega
  | ⟨1, _⟩ => show win0_2.index t (1 : Fin 2) * 32 + 1 * g.val = g.val; omega

/-- Tile entry `q` of the biases at point `t` is array entry `o = 128 t + q`. -/
theorem bias_block (c : Dev nD) (t : Fin cfg0.N) (q : Fin 128) (o : Fin 11008) (ho : o.val = t.val * 128 + q.val) :
    (iblk m c 3 t : Vec Ideal S128 .f32) (ix1 q) = ((m ((c : Thread nD τ).loc main_arg4)) : S11008.Idx → EReal) (ix1 o) := by
  obtain ⟨-, -, -, -, -, -, -, e0, -⟩ := tiles t
  unfold iblk
  rw [View.read_apply]
  show (V m c main_arg4 : S11008.Idx → EReal) _ = _
  rw [V_main_arg4]
  refine congrArg ((m ((c : Thread nD τ).loc main_arg4)) : S11008.Idx → EReal) (funext fun a => Fin.ext ?_)
  match a with
  | ⟨0, _⟩ => show win0_3.index t (0 : Fin 1) * 128 + 1 * q.val = o.val; omega

/-- Entry `(p, q)` of the result's block at point `t` sits at `(p, o)`, `o = 128 t + q`, in the result array. -/
theorem out_block (t : Fin cfg0.N) (p : Fin 2048) (q : Fin 128) (o : Fin 11008) (ho : o.val = t.val * 128 + q.val) :
    ((cfg0.win 4).blk t).view.emb (ix2 p q) = (ix2 p o : S2048x11008.Idx) := by
  obtain ⟨-, -, -, -, -, -, -, -, e0, e1⟩ := tiles t
  refine funext fun a => Fin.ext ?_
  match a with
  | ⟨0, _⟩ => show win0_4.index t (0 : Fin 2) * 2048 + 1 * p.val = p.val; omega
  | ⟨1, _⟩ => show win0_4.index t (1 : Fin 2) * 128 + 1 * q.val = o.val; omega

/-! ## What a point writes back -/

/-- Point `t` writes back block `t` of the linear layer of the argument arrays. -/
theorem flushed_eq (c : Dev nD) (t : Fin cfg0.N) :
    (dats m 0 c).flushed 4 t = ((cfg0.win 4).blk t).view.read (Elt Ideal) (linear (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.KernelIdeal.Value.flushed4]
  unfold out0_4
  rw [View.canon_unit_zero zeros2]
  simp only [View.ld_unit_zero (S := S2048x4096) zeros2, View.ld_unit_zero (S := S128x32x128) zeros3,
    View.ld_unit_zero (S := S128x32) zeros2, View.ld_unit_zero (S := S128) zeros1]
  funext y
  obtain ⟨p, q, rfl⟩ : ∃ (p : Fin 2048) (q : Fin 128), y = ix2 p q := ⟨y 0, y 1, eq_ix2 y⟩
  have hN : cfg0.N = 86 := N_0
  have ht : t.val < 86 := hN ▸ t.isLt
  have hq : q.val < 128 := q.isLt
  obtain ⟨o, ho⟩ : ∃ o : Fin 11008, o.val = t.val * 128 + q.val := ⟨⟨t.val * 128 + q.val, by omega⟩, rfl⟩
  show k0_pay1 (F := Ideal) (iblk m c 0 t) (iblk m c 1 t) (iblk m c 2 t) (iblk m c 3 t) (ix2 p q)
    = (linear (m ((c : Thread nD τ).loc main_arg0)) (m ((c : Thread nD τ).loc main_arg1)) (m ((c : Thread nD τ).loc main_arg2)) (m ((c : Thread nD τ).loc main_arg3)) (m ((c : Thread nD τ).loc main_arg4))) (((cfg0.win 4).blk t).view.emb (ix2 p q))
  rw [out_block t p q o ho, linear_apply, Tile.stored_apply, bias_block m c t q o ho]
  refine congrArg (· + ((m ((c : Thread nD τ).loc main_arg4)) : S11008.Idx → EReal) (ix1 o)) (Finset.sum_congr rfl fun k _ => ?_)
  rw [acts_block, Entry.acts_apply, weights_block m c t q (grp k) (lane k) o ho, scales_block m c t q (grp k) o ho,
    Entry.scales_apply]
  rfl

/-! ## The blocks cover the array -/

/-- An index of the result array is in point `t`'s block iff each coordinate is in the block's range on its axis. -/
theorem mem_blk (t : Fin cfg0.N) (i : S2048x11008.Idx) :
    i ∈ ((cfg0.win 4).blk t).view.set ↔ ∀ a : Fin 2, win0_4.index t a * S2048x128.size a ≤ (i a).val
      ∧ (i a).val < win0_4.index t a * S2048x128.size a + S2048x128.size a := by
  show i ∈ ((View.whole main_v5).slice (win0_4.rect t)).set ↔ _
  rw [View.set_slice_whole, Rect.mem_set_unit]
  exact Iff.rfl

/-- Every entry of the result array is written back by some point: column `o` by point `o / 128`. -/
theorem cover (i : S2048x11008.Idx) :
    ∃ t : Fin cfg0.N, (cfg0.win 4).flush t = true ∧ i ∈ ((cfg0.win 4).blk t).view.set := by
  have hi0 : (i 0).val < 2048 := (i 0).isLt
  have hi1 : (i 1).val < 11008 := (i 1).isLt
  have hN : cfg0.N = 86 := N_0
  obtain ⟨t, ht⟩ : ∃ t : Fin cfg0.N, t.val = (i 1).val / 128 := ⟨⟨(i 1).val / 128, by rw [hN]; omega⟩, rfl⟩
  obtain ⟨-, -, -, -, -, -, -, -, e0, e1⟩ := tiles t
  refine ⟨t, flush0_4 t, ?_⟩
  rw [mem_blk]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 128 ≤ (i 1).val ∧ (i 1).val < win0_4.index t (1 : Fin 2) * 128 + 128
    omega

/-! ## The result array and the run -/

/-- After the run the result array holds the linear layer of the argument arrays. -/
theorem final (c : Dev nD) : (dats m 0 c).arrAt 4 cfg0.N = linear (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 4 (linear (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq m c t) cover

/-- The kernel's run: every weakly fair execution terminates with the result array at the linear layer of the
    argument arrays, the arguments unchanged. -/
theorem run : θ_run defs (onTc (τ := τ) (main (F := Ideal))) ⟨m, fun _ => 0, ρ⟩ fun r => ∀ c : Dev nD,
      r.2.mem ((c : Thread nD τ).loc main_v5) = linear (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.lean ====
/-
  A quantized linear layer, tiled over its outputs, against the plain one.

  Both programs compute, for 2048 tokens and 11008 outputs,

      out[t, o] = (∑ k < 4096, (x[t, k] / s[k]) · (w_q[o, k / 128, k % 128] · scales[o, k / 128, 0])) + bias[o]

  (Proof/Spec.lean): activations smoothed feature by feature, weights stored as signed integers in 32 groups of 128
  with one scale per output and group. The reference dequantizes the whole weight array, transposes it and contracts
  once (Proof/RefValue.lean). The kernel's program smooths the activations first, then runs 86 grid points, each
  dequantizing 128 output rows and multiplying the activations by that tile transposed into a zero accumulator
  (Proof/Tile.lean, Proof/Entry.lean); the 86 column blocks it writes back cover the result array
  (Proof/Whole.lean). Over the extended reals, where a float is an exact number and a change of float format does
  nothing, the two are the same sums of the same products, term by term in the same order, so no entry needs to be
  finite: the precondition is never opened. The idealized kernel is the kernel's own text read over the extended
  reals (no operation was rewritten), so there is nothing to preserve; and each program terminates without fault
  leaving its arguments as they were, the two kernels by their launch-and-body runs, the reference by its run read
  back.
-/
import proofs.«150704_j20847771255042_2_alg».proof.Defs
import proofs.«150704_j20847771255042_2_alg».proof.Proof.Gen.Kernel
import proofs.«150704_j20847771255042_2_alg».proof.Proof.Gen.Kernel.Skeleton
import proofs.«150704_j20847771255042_2_alg».proof.Proof.Gen.Kernel.Launch
import proofs.«150704_j20847771255042_2_alg».proof.Proof.Gen.Kernel.Points
import proofs.«150704_j20847771255042_2_alg».proof.Proof.Gen.Kernel.Frame
import proofs.«150704_j20847771255042_2_alg».proof.Proof.Gen.KernelIdeal
import proofs.«150704_j20847771255042_2_alg».proof.Proof.Gen.KernelIdeal.Skeleton
import proofs.«150704_j20847771255042_2_alg».proof.Proof.Gen.KernelIdeal.Launch
import proofs.«150704_j20847771255042_2_alg».proof.Proof.Gen.KernelIdeal.Points
import proofs.«150704_j20847771255042_2_alg».proof.Proof.Gen.KernelIdeal.Frame
import proofs.«150704_j20847771255042_2_alg».proof.Proof.Gen.KernelIdeal.Value
import proofs.«150704_j20847771255042_2_alg».proof.Proof.Gen.ReferenceIdeal
import proofs.«150704_j20847771255042_2_alg».proof.Proof.Gen.Pre_finite_inputs
import proofs.«150704_j20847771255042_2_alg».proof.Proof.Gen.ReferenceIdeal.Run
import proofs.«150704_j20847771255042_2_alg».proof.Proof.Gen.ReferenceIdeal.Read
import proofs.«150704_j20847771255042_2_alg».proof.Proof.RefValue
import proofs.«150704_j20847771255042_2_alg».proof.Proof.Whole
import Idealize.ShloMosaic.Adequacy
import Idealize.ShloMosaic.Init

noncomputable section

namespace Cert.Proof

open Idealize.ShloMosaic Idealize.SL.Sem

/-- The kernel as printed terminates without fault and leaves its arguments unchanged. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run read back, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories agreeing on the five arguments both programs end with the result array at the linear layer of
    those arguments: the kernel's 86 column blocks cover it, the reference's one contraction is it. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
